-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x166 : Shape := ⟨2, ![200000, 166]⟩
abbrev S2x500000 : Shape := ⟨2, ![2, 500000]⟩
abbrev S64x166 : Shape := ⟨2, ![64, 166]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S200000x166 : S_.BroadcastsInDim S200000x166 (![] : Fin 0 → Fin S200000x166.rank)
  reducesTo_S200000x166_S_d0_1 : S200000x166.ReducesTo [0, 1] S_
  h_S_ : 0 < S_.numel
  bcast_S_S64x166 : S_.BroadcastsInDim S64x166 (![] : Fin 0 → Fin S64x166.rank)
  reducesTo_S64x166_S_d0_1 : S64x166.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2x64 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg6
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x166 .f32) (main_arg1 : IVec S2x500000 32) (main_arg2 : FVec F S64x166 .f32) (main_arg3 : FVec F S64x166 .f32) (main_arg4 : FVec F S64 .f32) (main_arg5 : FVec F S2x64 .f32) (main_arg6 : FVec F S2x64 .f32) (main_arg7 : FVec F S2 .f32) : IVec S_ 1 :=
  let main_v0 : FVec F S200000x166 .f32 := Host.absf main_arg0
  let main_cst : FVec F S_ .f32 := constant S_ .f32 0x7F800000#32
  let main_v1 : FVec F S200000x166 .f32 := broadcastInDim S200000x166 ![] bcast_S_S200000x166 main_cst
  let main_v2 : IVec S200000x166 1 := cmpf .olt main_v0 main_v1
  let main_c : IVec S_ 1 := constantI S_ 1 1#1
  let main_v3 : IVec S_ 1 := (fun x v => Host.reduce IntOp.andi x v reducesTo_S200000x166_S_d0_1 h_S_) main_v2 main_c
  let main_v4 : FVec F S64x166 .f32 := Host.absf main_arg2
  let main_cst_0 : FVec F S_ .f32 := constant S_ .f32 0x7F800000#32
  let main_v5 : FVec F S64x166 .f32 := broadcastInDim S64x166 ![] bcast_S_S64x166 main_cst_0
  let main_v6 : IVec S64x166 1 := cmpf .olt main_v4 main_v5
  let main_c_1 : IVec S_ 1 := constantI S_ 1 1#1
  let main_v7 : IVec S_ 1 := (fun x v => Host.reduce IntOp.andi x v reducesTo_S64x166_S_d0_1 h_S_) main_v6 main_c_1
  let main_v8 : IVec S_ 1 := andi main_v3 main_v7
  let main_v9 : FVec F S64x166 .f32 := Host.absf main_arg3
  let main_cst_2 : FVec F S_ .f32 := constant S_ .f32 0x7F800000#32
  let main_v10 : FVec F S64x166 .f32 := broadcastInDim S64x166 ![] bcast_S_S64x166 main_cst_2
  let main_v11 : IVec S64x166 1 := cmpf .olt main_v9 main_v10
  let main_c_3 : IVec S_ 1 := constantI S_ 1 1#1
  let main_v12 : IVec S_ 1 := (fun x v => Host.reduce IntOp.andi x v reducesTo_S64x166_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S200000x166 : Shape := ⟨2, ![200000, 166]⟩
abbrev S2x500000 : Shape := ⟨2, ![2, 500000]⟩
abbrev S64x166 : Shape := ⟨2, ![64, 166]⟩
abbrev S64 : Shape := ⟨1, ![64]⟩
abbrev S2x64 : Shape := ⟨2, ![2, 64]⟩
abbrev S2 : Shape := ⟨1, ![2]⟩
abbrev S1x500000 : Shape := ⟨2, ![1, 500000]⟩
abbrev S500000 : Shape := ⟨1, ![500000]⟩
abbrev S_ : Shape := ⟨0, ![]⟩
abbrev S200000 : Shape := ⟨1, ![200000]⟩
abbrev S500000x1 : Shape := ⟨2, ![500000, 1]⟩
abbrev S200000x1 : Shape := ⟨2, ![200000, 1]⟩
abbrev S500000x166 : Shape := ⟨2, ![500000, 166]⟩
abbrev S166x64 : Shape := ⟨2, ![166, 64]⟩
abbrev S1x64 : Shape := ⟨2, ![1, 64]⟩
abbrev S200000x64 : Shape := ⟨2, ![200000, 64]⟩
abbrev S4000x166 : Shape := ⟨2, ![4000, 166]⟩
abbrev S4000x64 : Shape := ⟨2, ![4000, 64]⟩
abbrev S500000x64 : Shape := ⟨2, ![500000, 64]⟩
abbrev S64x2 : Shape := ⟨2, ![64, 2]⟩
abbrev S1x2 : Shape := ⟨2, ![1, 2]⟩
abbrev S200000x2 : Shape := ⟨2, ![200000, 2]⟩
abbrev S4000x2 : Shape := ⟨2, ![4000, 2]⟩

abbrev nBuf : Space → Nat
  | .hbm => 63
  | .vmem => 18
  | .smem => 0
  | _ => 0

abbrev bufTy : (tb : Table) → Fin (tcTables nBuf tb) → BufTy
  | .hbm, ⟨0, _⟩ => ⟨S200000x166, .f32⟩
  | .hbm, ⟨1, _⟩ => ⟨S2x500000, .i32⟩
  | .hbm, ⟨2, _⟩ => ⟨S64x166, .f32⟩
  | .hbm, ⟨3, _⟩ => ⟨S64x166, .f32⟩
  | .hbm, ⟨4, _⟩ => ⟨S64, .f32⟩
  | .hbm, ⟨5, _⟩ => ⟨S2x64, .f32⟩
  | .hbm, ⟨6, _⟩ => ⟨S2x64, .f32⟩
  | .hbm, ⟨7, _⟩ => ⟨S2, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S200000, .f32⟩
  | .hbm, ⟨16, _⟩ => ⟨S500000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S200000x1, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x166, .f32⟩
  | .hbm, ⟨34, _⟩ => ⟨S_, .f32⟩
  | .hbm, ⟨35, _⟩ => ⟨S200000x166, .f32⟩
  | .hbm, ⟨36, _⟩ => ⟨S500000x1, .i32⟩
  | .hbm, ⟨37, _⟩ => ⟨S200000x166, .f32⟩
  | .hbm, ⟨38, _⟩ => ⟨S200000x166, .f32⟩
  | .hbm, ⟨39, _⟩ => ⟨S200000x166, .f32⟩
  | .hbm, ⟨40, _⟩ => ⟨S166x64, .f32⟩
  | .hbm, ⟨41, _⟩ => ⟨S166x64, .f32⟩
  | .hbm, ⟨42, _⟩ => ⟨S1x64, .f32⟩
  | .hbm, ⟨43, _⟩ => ⟨S200000x64, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x64, .f32⟩
  | .hbm, ⟨53, _⟩ => ⟨S_, .f32⟩
  | .hbm, ⟨54, _⟩ => ⟨S200000x64, .f32⟩
  | .hbm, ⟨55, _⟩ => ⟨S500000x1, .i32⟩
  | .hbm, ⟨56, _⟩ => ⟨S200000x64, .f32⟩
  | .hbm, ⟨57, _⟩ => ⟨S200000x64, .f32⟩
  | .hbm, ⟨58, _⟩ => ⟨S200000x64, .f32⟩
  | .hbm, ⟨59, _⟩ => ⟨S64x2, .f32⟩
  | .hbm, ⟨60, _⟩ => ⟨S64x2, .f32⟩
  | .hbm, ⟨61, _⟩ => ⟨S1x2, .f32⟩
  | .hbm, ⟨62, _⟩ => ⟨S200000x2, .f32⟩
  | .local _ .vmem, ⟨0, _⟩ => ⟨S4000x166, .f32⟩
  | .local _ .vmem, ⟨1, _⟩ => ⟨S4000x166, .f32⟩
  | .local _ .vmem, ⟨2, _⟩ => ⟨S4000x166, .f32⟩
  | .local _ .vmem, ⟨3, _⟩ => ⟨S4000x166, .f32⟩
  | .local _ .vmem, ⟨4, _⟩ => ⟨S166x64, .f32⟩
  | .local _ .vmem, ⟨5, _⟩ => ⟨S166x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x2, .f32⟩
  | .local _ .vmem, ⟨14, _⟩ => ⟨S64x2, .f32⟩
  | .local _ .vmem, ⟨15, _⟩ => ⟨S1x2, .f32⟩
  | .local _ .vmem, ⟨16, _⟩ => ⟨S4000x2, .f32⟩
  | .local _ .vmem, ⟨17, _⟩ => ⟨S4000x2, .f32⟩
  | _, _ => ⟨S200000x166, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x166 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x166 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S166x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S166x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S200000_S200000x1_0 : S200000.BroadcastsInDim S200000x1 (![0] : Fin 1 → Fin S200000x1.rank)
  bcast_S_S200000x166 : S_.BroadcastsInDim S200000x166 (![] : Fin 0 → Fin S200000x166.rank)
  bcast_S200000x1_S200000x166_0_1 : S200000x1.BroadcastsInDim S200000x166 (![0, 1] : Fin 2 → Fin S200000x166.rank)
  transposes_S64x166_S166x64_1_0 : S64x166.Transposes [1, 0] S166x64
  shapeCasts_S64_S1x64 : S64.ShapeCasts S1x64
  inb_S4000x166_S4000x166_0_0 : ∀ a, (![0, 0] : Fin 2 → Nat) a + S4000x166.size a ≤ S4000x166.size a
  h_S4000x166 : 0 < S4000x166.numel
  shapeCasts_S4000x166_S4000x166 : S4000x166.ShapeCasts S4000x166
  bitsLt_bf16_f32 : FTy.bits .bf16 < FTy.bits .f32
  inb_S166x64_S166x64_0_0 : ∀ a, (![0, 0] : Fin 2 → Nat) a + S166x64.size a ≤ S166x64.size a
  h_S166x64 : 0 < S166x64.numel
  shapeCasts_S166x64_S166x64 : S166x64.ShapeCasts S166x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  transposes_S2x64_S64x2_1_0 : S2x64.Transposes [1, 0] S64x2
  shapeCasts_S2_S1x2 : S2.ShapeCasts S1x2
  shapeCasts_S4000x64_S4000x64 : S4000x64.ShapeCasts S4000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S200000_S500000x1_S500000_n_0_0_1_wf : ScatterDims.WF S200000 S500000x1 S500000 [] [0] [0] 1
  gather_S200000x166_S500000x1_S500000x166_1_0_n_n_0_1_1166_wf : GatherDims.WF S200000x166 S500000x1 S500000x166 [1] [0] [] [0] [] 1 ![1, 166]
  scatter_S200000x166_S500000x1_S500000x166_1_0_0_1_wf : ScatterDims.WF S200000x166 S500000x1 S500000x166 [1] [0] [0] 1
  dot_S4000x166_S166x64_S4000x64_1_0_0_1_n_n_wf : DotDims.WF S4000x166 S166x64 S4000x64 [1] [0] [0] [1] [] []
  gather_S200000x64_S500000x1_S500000x64_1_0_n_n_0_1_164_wf : GatherDims.WF S200000x64 S500000x1 S500000x64 [1] [0] [] [0] [] 1 ![1, 64]
  scatter_S200000x64_S500000x1_S500000x64_1_0_0_1_wf : ScatterDims.WF S200000x64 S500000x1 S500000x64 [1] [0] [0] 1
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x166.size a ≤ S200000x166.size a
  hwx0_0 : ∀ i : grid0.Coords, EltTy.bits .f32 = 32 ∨ (Rect.block (s := S200000x166) S4000x166.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x166.size a ≤ S200000x166.size a
  hwx0_1 : ∀ i : grid0.Coords, EltTy.bits .f32 = 32 ∨ (Rect.block (s := S200000x166) S4000x166.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S166x64.size a ≤ S166x64.size a
  hwx0_2 : ∀ i : grid0.Coords, EltTy.bits .f32 = 32 ∨ (Rect.block (s := S166x64) S166x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S166x64.size a ≤ S166x64.size a
  hwx0_3 : ∀ i : grid0.Coords, EltTy.bits .f32 = 32 ∨ (Rect.block (s := S166x64) S166x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2.size a ≤ S64x2.size a
  hwx1_3 : ∀ i : grid1.Coords, EltTy.bits .f32 = 32 ∨ (Rect.block (s := S64x2) S64x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x2.size a ≤ S200000x2.size a
  hwx1_5 : ∀ i : grid1.Coords, EltTy.bits .f32 = 32 ∨ (Rect.block (s := S200000x2) S4000x2.size (cc1_transform_5 i) (hinb1_5 i)).WholeWords (EltTy.packing .f32)

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x166_S500000x1_S500000x166_1_0_n_n_0_1_1166 : GatherDims S200000x166 S500000x1 S500000x166 where
  offsetDims := [1]
  collapsedSliceDims := [0]
  operandBatchingDims := []
  startIndicesBatchingDims := []
  startIndexMap := [0]
  indexVectorDim := 1
  sliceSizes := ![1, 166]
  wf := gather_S200000x166_S500000x1_S500000x166_1_0_n_n_0_1_1166_wf
def scatter_S200000x166_S500000x1_S500000x166_1_0_0_1 : ScatterDims S200000x166 S500000x1 S500000x166 where
  updateWindowDims := [1]
  insertedWindowDims := [0]
  scatterDimsToOperandDims := [0]
  indexVectorDim := 1
  wf := scatter_S200000x166_S500000x1_S500000x166_1_0_0_1_wf
def dot_S4000x166_S166x64_S4000x64_1_0_0_1_n_n : DotDims S4000x166 S166x64 S4000x64 where
  lhsContracting := [1]
  rhsContracting := [0]
  lhsNonContracting := [0]
  rhsNonContracting := [1]
  lhsBatch := []
  rhsBatch := []
  wf := dot_S4000x166_S166x64_S4000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v24) S4000x166.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x166.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S166x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S166x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x166 : Shape := ⟨2, ![200000, 166]⟩
abbrev S2x500000 : Shape := ⟨2, ![2, 500000]⟩
abbrev S64x166 : Shape := ⟨2, ![64, 166]⟩
abbrev S64 : Shape := ⟨1, ![64]⟩
abbrev S2x64 : Shape := ⟨2, ![2, 64]⟩
abbrev S2 : Shape := ⟨1, ![2]⟩
abbrev S1x500000 : Shape := ⟨2, ![1, 500000]⟩
abbrev S500000 : Shape := ⟨1, ![500000]⟩
abbrev S_ : Shape := ⟨0, ![]⟩
abbrev S200000 : Shape := ⟨1, ![200000]⟩
abbrev S500000x1 : Shape := ⟨2, ![500000, 1]⟩
abbrev S200000x1 : Shape := ⟨2, ![200000, 1]⟩
abbrev S500000x166 : Shape := ⟨2, ![500000, 166]⟩
abbrev S166x64 : Shape := ⟨2, ![166, 64]⟩
abbrev S200000x64 : Shape := ⟨2, ![200000, 64]⟩
abbrev S1x64 : Shape := ⟨2, ![1, 64]⟩
abbrev S500000x64 : Shape := ⟨2, ![500000, 64]⟩
abbrev S64x2 : Shape := ⟨2, ![64, 2]⟩
abbrev S200000x2 : Shape := ⟨2, ![200000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S200000x166, .f32⟩
  | .hbm, ⟨1, _⟩ => ⟨S2x500000, .i32⟩
  | .hbm, ⟨2, _⟩ => ⟨S64x166, .f32⟩
  | .hbm, ⟨3, _⟩ => ⟨S64x166, .f32⟩
  | .hbm, ⟨4, _⟩ => ⟨S64, .f32⟩
  | .hbm, ⟨5, _⟩ => ⟨S2x64, .f32⟩
  | .hbm, ⟨6, _⟩ => ⟨S2x64, .f32⟩
  | .hbm, ⟨7, _⟩ => ⟨S2, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S200000, .f32⟩
  | .hbm, ⟨16, _⟩ => ⟨S500000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S200000x1, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x166, .f32⟩
  | .hbm, ⟨34, _⟩ => ⟨S_, .f32⟩
  | .hbm, ⟨35, _⟩ => ⟨S200000x166, .f32⟩
  | .hbm, ⟨36, _⟩ => ⟨S500000x1, .i32⟩
  | .hbm, ⟨37, _⟩ => ⟨S200000x166, .f32⟩
  | .hbm, ⟨38, _⟩ => ⟨S200000x166, .f32⟩
  | .hbm, ⟨39, _⟩ => ⟨S200000x166, .f32⟩
  | .hbm, ⟨40, _⟩ => ⟨S166x64, .f32⟩
  | .hbm, ⟨41, _⟩ => ⟨S200000x64, .f32⟩
  | .hbm, ⟨42, _⟩ => ⟨S166x64, .f32⟩
  | .hbm, ⟨43, _⟩ => ⟨S200000x64, .f32⟩
  | .hbm, ⟨44, _⟩ => ⟨S200000x64, .f32⟩
  | .hbm, ⟨45, _⟩ => ⟨S1x64, .f32⟩
  | .hbm, ⟨46, _⟩ => ⟨S200000x64, .f32⟩
  | .hbm, ⟨47, _⟩ => ⟨S200000x64, .f32⟩
  | .hbm, ⟨48, _⟩ => ⟨S_, .f32⟩
  | .hbm, ⟨49, _⟩ => ⟨S200000x64, .f32⟩
  | .hbm, ⟨50, _⟩ => ⟨S200000x64, .f32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S500000x64, .f32⟩
  | .hbm, ⟨60, _⟩ => ⟨S_, .f32⟩
  | .hbm, ⟨61, _⟩ => ⟨S200000x64, .f32⟩
  | .hbm, ⟨62, _⟩ => ⟨S500000x1, .i32⟩
  | .hbm, ⟨63, _⟩ => ⟨S200000x64, .f32⟩
  | .hbm, ⟨64, _⟩ => ⟨S200000x64, .f32⟩
  | .hbm, ⟨65, _⟩ => ⟨S200000x64, .f32⟩
  | .hbm, ⟨66, _⟩ => ⟨S64x2, .f32⟩
  | .hbm, ⟨67, _⟩ => ⟨S200000x2, .f32⟩
  | .hbm, ⟨68, _⟩ => ⟨S64x2, .f32⟩
  | .hbm, ⟨69, _⟩ => ⟨S200000x2, .f32⟩
  | .hbm, ⟨70, _⟩ => ⟨S200000x2, .f32⟩
  | .hbm, ⟨71, _⟩ => ⟨S1x2, .f32⟩
  | .hbm, ⟨72, _⟩ => ⟨S200000x2, .f32⟩
  | .hbm, ⟨73, _⟩ => ⟨S200000x2, .f32⟩
  | _, _ => ⟨S200000x166, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S200000_S200000x1_0 : S200000.BroadcastsInDim S200000x1 (![0] : Fin 1 → Fin S200000x1.rank)
  bcast_S_S200000x166 : S_.BroadcastsInDim S200000x166 (![] : Fin 0 → Fin S200000x166.rank)
  bcast_S200000x1_S200000x166_0_1 : S200000x1.BroadcastsInDim S200000x166 (![0, 1] : Fin 2 → Fin S200000x166.rank)
  transposes_S64x166_S166x64_1_0 : S64x166.Transposes [1, 0] S166x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  transposes_S2x64_S64x2_1_0 : S2x64.Transposes [1, 0] S64x2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S500000x1_S500000_n_0_0_1_wf : ScatterDims.WF S200000 S500000x1 S500000 [] [0] [0] 1
  gather_S200000x166_S500000x1_S500000x166_1_0_n_n_0_1_1166_wf : GatherDims.WF S200000x166 S500000x1 S500000x166 [1] [0] [] [0] [] 1 ![1, 166]
  scatter_S200000x166_S500000x1_S500000x166_1_0_0_1_wf : ScatterDims.WF S200000x166 S500000x1 S500000x166 [1] [0] [0] 1
  dot_S200000x166_S166x64_S200000x64_1_0_0_1_n_n_wf : DotDims.WF S200000x166 S166x64 S200000x64 [1] [0] [0] [1] [] []
  gather_S200000x64_S500000x1_S500000x64_1_0_n_n_0_1_164_wf : GatherDims.WF S200000x64 S500000x1 S500000x64 [1] [0] [] [0] [] 1 ![1, 64]
  scatter_S200000x64_S500000x1_S500000x64_1_0_0_1_wf : ScatterDims.WF S200000x64 S500000x1 S500000x64 [1] [0] [0] 1
  dot_S200000x64_S64x2_S200000x2_1_0_0_1_n_n_wf : DotDims.WF S200000x64 S64x2 S200000x2 [1] [0] [0] [1] [] []

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x166_S500000x1_S500000x166_1_0_n_n_0_1_1166 : GatherDims S200000x166 S500000x1 S500000x166 where
  offsetDims := [1]
  collapsedSliceDims := [0]
  operandBatchingDims := []
  startIndicesBatchingDims := []
  startIndexMap := [0]
  indexVectorDim := 1
  sliceSizes := ![1, 166]
  wf := gather_S200000x166_S500000x1_S500000x166_1_0_n_n_0_1_1166_wf
def scatter_S200000x166_S500000x1_S500000x166_1_0_0_1 : ScatterDims S200000x166 S500000x1 S500000x166 where
  updateWindowDims := [1]
  insertedWindowDims := [0]
  scatterDimsToOperandDims := [0]
  indexVectorDim := 1
  wf := scatter_S200000x166_S500000x1_S500000x166_1_0_0_1_wf
def dot_S200000x166_S166x64_S200000x64_1_0_0_1_n_n : DotDims S200000x166 S166x64 S200000x64 where
  lhsContracting := [1]
  rhsContracting := [0]
  lhsNonContracting := [0]
  rhsNonContracting := [1]
  lhsBatch := []
  rhsBatch := []
  wf := dot_S200000x166_S166x64_S200000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def dot_S200000x64_S64x2_S200000x2_1_0_0_1_n_n : DotDims S200000x64 S64x2 S200000x2 where
  lhsContracting := [1]
  rhsContracting := [0]
  lhsNonContracting := [0]
  rhsNonContracting := [1]
  lhsBatch := []
  rhsBatch := []
  wf := dot_S200000x64_S64x2_S200000x2_1_0_0_1_n_n_wf

class Facts : Prop extends Facts₀ where

variable [Facts]
-- ==== Proof.KernelRun.lean ====
/-
  The idealized kernel's run with its result named.

  @main is a stretch of host operations, the first fused layer, a second stretch of host operations, the second fused
  layer.  Every weakly fair execution terminates, faults nowhere, leaves the eight argument arrays as launched — and
  leaves the result array at what the second layer's 50 write-backs fold to, read off the contents of the core's
  buffers after the last segment.  The four segments and every pipeline's proof data are the imported frame module's;
  the launch theorem for a run of segments is applied to them with the final state read at the result's buffer as well
  as at the arguments'.
-/
import proofs.«154784_j1623497638641_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result array at the last segment's
    contents of its buffer and the argument arrays as launched. -/
theorem run_out : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Out

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibDenseBlock.lean ====
/-
  A fused dense layer on a block of rows, read at an entry, on the extended reals.

  The block computes  A · WL + X · WR + b  (and, for a rectified layer, the maximum of that with zero): the two
  matrix products are accumulated into zero matrices from operands first rounded to a narrower float format — at the
  ideal values the rounding is the identity —, they are added, and a one-row matrix `b` is repeated down the rows and
  added.  Entry (p, q) is

      (∑ k, A[p, k] · WL[k, q]  +  ∑ k, X[p, k] · WR[k, q])  +  b[0, q].

  All extents are variables.
-/
import proofs.«154784_j1623497638641_1_alg».proof.Proof.LibLayout

noncomputable section

namespace Cert.LibDenseBlock

open Idealize.ShloMosaic Idealize.ShloMosaic.ValueIdx

/-- Entry (p, q) of  A · WL + X · WR + b : the two contractions over the shared inner extent, then the bias of
    column q. -/
def affine {n d e : ℕ} (A X : FVec Ideal ⟨2, ![n, d]⟩ .f32) (WL WR : FVec Ideal ⟨2, ![d, e]⟩ .f32)
    (b : Fin e → Ideal .f32) (p : Fin n) (q : Fin e) : Ideal .f32 :=
  (∑ k : Fin d, A (ix2 p k) * WL (ix2 k q) + ∑ k : Fin d, X (ix2 p k) * WR (ix2 k q)) + b q

/-- The block's arithmetic as the vector unit spells it — operands rounded to a narrower format, two products into
    zero accumulators, their sum, a one-row bias repeated down the rows and added — is `affine` at every entry.
    The dimension record's own facts (one contracted axis of extent `d`, rows against columns) are hypotheses, closed
    at a literal record by `rfl`. -/
theorem block_affine_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb) (ix2 p q)
      = affine a x wl wr (fun q => b (ix2 (0 : Fin 1) q)) p q := by
  rw [addf_apply, addf_apply,
    Cert.LibLayout.matmul_rows_cols_apply D hr hs hlc hrc hl0 hr1 none (truncf ψ a hψ) (truncf ψ wl hψ) p q,
    Cert.LibLayout.matmul_rows_cols_apply D hr hs hlc hrc hl0 hr1 none (truncf ψ x hψ) (truncf ψ wr hψ) p q,
    broadcastTo_1b_ab_apply b hb p q]
  rfl

end Cert.LibDenseBlock

end
-- ==== Proof.KernelBlocks.lean ====
/-
  What each of the kernel's two fused dense layers leaves in its output array.

  A layer is a grid of 50 points; point t reads rows 4000·t … 4000·t + 3999 of its two row operands (the normalised
  neighbour sum and the node features), the whole of both weight matrices and of the one-row bias, and writes rows
  4000·t … 4000·t + 3999 of the result: entry (p, q) of its block is `affine` of the blocks at (p, q) — for the first
  layer, its maximum with zero.  A row of the product depends only on the same row of the row operands, so the 50 blocks
  are the 50 row blocks of ONE function of the operand arrays as the layer finds them, and since the blocks tile the
  result array, the array ends holding that function.  The arrays the layer finds are a parameter `V` here.
-/
import proofs.«154784_j1623497638641_1_alg».proof.Proof.Gen.KernelIdeal.Frame
import proofs.«154784_j1623497638641_1_alg».proof.Proof.LibDenseBlock
import Idealize.ShloMosaic.Lib.Pipeline.Value
import Idealize.ShloMosaic.Lib.ValueIdx
import Idealize.ShloMosaic.Lib.ValueLayout

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)
open Cert.LibDenseBlock (affine)

theorem hz : (![0, 0] : Fin 2 → Nat) = fun _ => 0 := funext fun a => by fin_cases a <;> rfl

/-! ## The two dimension records: rows against columns, one contracted axis -/

theorem lhs0_0 (j : S4000x64.Idx) (k : dot_S4000x166_S166x64_S4000x64_1_0_0_1_n_n.contr.Idx) :
    (dot_S4000x166_S166x64_S4000x64_1_0_0_1_n_n.lhsIdx j k 0).val = (j 0).val := by
  unfold DotDims.lhsIdx
  rw [dif_neg (show ¬(0 : Fin S4000x166.rank) ∈ dot_S4000x166_S166x64_S4000x64_1_0_0_1_n_n.lhsBatch by decide),
    dif_pos (show (0 : Fin S4000x166.rank) ∈ dot_S4000x166_S166x64_S4000x64_1_0_0_1_n_n.lhsNonContracting by decide)]
  rfl

theorem rhs0_1 (j : S4000x64.Idx) (k : dot_S4000x166_S166x64_S4000x64_1_0_0_1_n_n.contr.Idx) :
    (dot_S4000x166_S166x64_S4000x64_1_0_0_1_n_n.rhsIdx j k 1).val = (j 1).val := by
  unfold DotDims.rhsIdx
  rw [dif_neg (show ¬(1 : Fin S166x64.rank) ∈ dot_S4000x166_S166x64_S4000x64_1_0_0_1_n_n.rhsBatch by decide),
    dif_pos (show (1 : Fin S166x64.rank) ∈ dot_S4000x166_S166x64_S4000x64_1_0_0_1_n_n.rhsNonContracting by decide)]
  rfl

theorem lhs1_0 (j : S4000x2.Idx) (k : dot_S4000x64_S64x2_S4000x2_1_0_0_1_n_n.contr.Idx) :
    (dot_S4000x64_S64x2_S4000x2_1_0_0_1_n_n.lhsIdx j k 0).val = (j 0).val := by
  unfold DotDims.lhsIdx
  rw [dif_neg (show ¬(0 : Fin S4000x64.rank) ∈ dot_S4000x64_S64x2_S4000x2_1_0_0_1_n_n.lhsBatch by decide),
    dif_pos (show (0 : Fin S4000x64.rank) ∈ dot_S4000x64_S64x2_S4000x2_1_0_0_1_n_n.lhsNonContracting by decide)]
  rfl

theorem rhs1_1 (j : S4000x2.Idx) (k : dot_S4000x64_S64x2_S4000x2_1_0_0_1_n_n.contr.Idx) :
    (dot_S4000x64_S64x2_S4000x2_1_0_0_1_n_n.rhsIdx j k 1).val = (j 1).val := by
  unfold DotDims.rhsIdx
  rw [dif_neg (show ¬(1 : Fin S64x2.rank) ∈ dot_S4000x64_S64x2_S4000x2_1_0_0_1_n_n.rhsBatch by decide),
    dif_pos (show (1 : Fin S64x2.rank) ∈ dot_S4000x64_S64x2_S4000x2_1_0_0_1_n_n.rhsNonContracting by decide)]
  rfl

/-! ## The bodies' arithmetic at an entry of the block -/

/-- The first layer's block at (p, q): the rectified affine combination of the loaded blocks. -/
theorem pay0_apply (x0 x1 : Vec Ideal S4000x166 .f32) (x2 x3 : Vec Ideal S166x64 .f32) (x4 : Vec Ideal S1x64 .f32)
    (p : Fin 4000) (q : Fin 64) :
    k0_pay1 x0 x1 x2 x3 x4 (ix2 p q)
      = max (affine x0 x1 x2 x3 (fun q => x4 (ix2 (0 : Fin 1) q)) p q) (FloatOps.ofBits .f32 0x00000000#32) := by
  unfold k0_pay1
  simp only [shapeCast_self]
  exact congrArg (max · (FloatOps.ofBits (F := Ideal) .f32 0x00000000#32))
    (Cert.LibDenseBlock.block_affine_apply dot_S4000x166_S166x64_S4000x64_1_0_0_1_n_n rfl rfl rfl rfl lhs0_0 rhs0_1
      bitsLt_bf16_f32 x0 x1 x2 x3 x4 broadcasts_S1x64_S4000x64 p q)

/-- The second layer's block at (p, q): the affine combination of the loaded blocks. -/
theorem pay1_apply (x0 x1 : Vec Ideal S4000x64 .f32) (x2 x3 : Vec Ideal S64x2 .f32) (x4 : Vec Ideal S1x2 .f32)
    (p : Fin 4000) (q : Fin 2) :
    k1_pay1 x0 x1 x2 x3 x4 (ix2 p q) = affine x0 x1 x2 x3 (fun q => x4 (ix2 (0 : Fin 1) q)) p q := by
  unfold k1_pay1
  simp only [shapeCast_self]
  exact Cert.LibDenseBlock.block_affine_apply dot_S4000x64_S64x2_S4000x2_1_0_0_1_n_n rfl rfl rfl rfl lhs1_0 rhs1_1
      bitsLt_bf16_f32 x0 x1 x2 x3 x4 broadcasts_S1x2_S4000x2 p q

/-! ## Where the windows' blocks sit: row block t of the row operands and of the result, the whole of the rest -/

variable (V : (c : Dev nD) → (b : Ref sig .tc) → Buf (Elt Ideal) ((c : Thread nD τ).loc b))

/-- The printed index maps of the first layer, decided over the 50 points. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- The printed index maps of the second layer, decided over the 50 points. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Row p of point t's block of the normalised neighbour sum is row 4000·t + p of the array. -/
theorem iblk0_0_apply (c : Dev nD) (t : Fin cfg0.N) (x : S4000x166.Idx) (k : S200000x166.Idx)
    (hk0 : (k 0).val = 4000 * t.val + (x 0).val) (hk1 : (k 1).val = (x 1).val) :
    (iblk0 V c 0 t : Vec Ideal S4000x166 .f32) x = (V c main_v24 : S200000x166.Idx → Elt Ideal .f32) k := by
  obtain ⟨⟨e0, e1⟩, -⟩ := idx0 t
  unfold iblk0
  rw [View.read_apply]
  show V c main_v24 _ = V c main_v24 _
  refine congrArg (V c main_v24) ?_
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 166 + 1 * (x 1).val = (k 1).val; rw [e1, hk1]; omega

/-- Row p of point t's block of the node features is row 4000·t + p of the array. -/
theorem iblk0_1_apply (c : Dev nD) (t : Fin cfg0.N) (x : S4000x166.Idx) (k : S200000x166.Idx)
    (hk0 : (k 0).val = 4000 * t.val + (x 0).val) (hk1 : (k 1).val = (x 1).val) :
    (iblk0 V c 1 t : Vec Ideal S4000x166 .f32) x = (V c main_arg0 : S200000x166.Idx → Elt Ideal .f32) k := by
  obtain ⟨-, ⟨e0, e1⟩, -⟩ := idx0 t
  unfold iblk0
  rw [View.read_apply]
  show V c main_arg0 _ = V c main_arg0 _
  refine congrArg (V c main_arg0) ?_
  funext a
  apply Fin.ext
  match a with
  | ⟨0, _⟩ => show win0_1.index t (0 : Fin 2) * 4000 + 1 * (x 0).val = (k 0).val; rw [e0, hk0]; omega
  | ⟨1, _⟩ => show win0_1.index t (1 : Fin 2) * 166 + 1 * (x 1).val = (k 1).val; rw [e1, hk1]; omega

/-- Every point's block of the left weights is the whole matrix. -/
theorem iblk0_2_apply (c : Dev nD) (t : Fin cfg0.N) (x : S166x64.Idx) :
    (iblk0 V c 2 t : Vec Ideal S166x64 .f32) x = (V c main_v25 : S166x64.Idx → Elt Ideal .f32) x := by
  obtain ⟨-, -, ⟨e0, e1⟩, -⟩ := idx0 t
  unfold iblk0
  rw [View.read_apply]
  show V c main_v25 _ = V c main_v25 _
  refine congrArg (V c main_v25) ?_
  funext a
  apply Fin.ext
  match a with
  | ⟨0, _⟩ => show win0_2.index t (0 : Fin 2) * 166 + 1 * (x 0).val = (x 0).val; rw [e0]; omega
  | ⟨1, _⟩ => show win0_2.index t (1 : Fin 2) * 64 + 1 * (x 1).val = (x 1).val; rw [e1]; omega

/-- Every point's block of the right weights is the whole matrix. -/
theorem iblk0_3_apply (c : Dev nD) (t : Fin cfg0.N) (x : S166x64.Idx) :
    (iblk0 V c 3 t : Vec Ideal S166x64 .f32) x = (V c main_v26 : S166x64.Idx → Elt Ideal .f32) x := by
  obtain ⟨-, -, -, ⟨e0, e1⟩, -⟩ := idx0 t
  unfold iblk0
  rw [View.read_apply]
  show V c main_v26 _ = V c main_v26 _
  refine congrArg (V c main_v26) ?_
  funext a
  apply Fin.ext
  match a with
  | ⟨0, _⟩ => show win0_3.index t (0 : Fin 2) * 166 + 1 * (x 0).val = (x 0).val; rw [e0]; omega
  | ⟨1, _⟩ => show win0_3.index t (1 : Fin 2) * 64 + 1 * (x 1).val = (x 1).val; rw [e1]; omega

/-- Every point's block of the bias is the whole one-row matrix. -/
theorem iblk0_4_apply (c : Dev nD) (t : Fin cfg0.N) (x : S1x64.Idx) :
    (iblk0 V c 4 t : Vec Ideal S1x64 .f32) x = (V c main_v27 : S1x64.Idx → Elt Ideal .f32) x := by
  obtain ⟨-, -, -, -, ⟨e0, e1⟩, -⟩ := idx0 t
  unfold iblk0
  rw [View.read_apply]
  show V c main_v27 _ = V c main_v27 _
  refine congrArg (V c main_v27) ?_
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-! ## The first layer's output array -/

/-- What the first layer's output array ends holding: at node r, feature s, the rectified affine combination of
    row r of the normalised neighbour sum and of the node features with the weights and the bias, all as the layer
    finds them. -/
def hidden (c : Dev nD) : S200000x64.Idx → Ideal .f32 := fun i =>
  max (affine (V c main_v24 : FVec Ideal S200000x166 .f32) (V c main_arg0 : FVec Ideal S200000x166 .f32)
      (V c main_v25 : FVec Ideal S166x64 .f32) (V c main_v26 : FVec Ideal S166x64 .f32)
      (fun q => (V c main_v27 : FVec Ideal S1x64 .f32) (ix2 (0 : Fin 1) q)) (i 0) (i 1))
    (FloatOps.ofBits .f32 0x00000000#32)

/-- An entry of point t's block is `hidden` at the entry's place in the array. -/
theorem blk0_eq (c : Dev nD) (t : Fin cfg0.N) (j : S4000x64.Idx) (i : S200000x64.Idx)
    (hi0 : (i 0).val = 4000 * t.val + (j 0).val) (hi1 : (i 1).val = (j 1).val) :
    k0_pay1 (iblk0 V c 0 t) (iblk0 V c 1 t) (iblk0 V c 2 t) (iblk0 V c 3 t) (iblk0 V c 4 t) j = hidden V c i := by
  obtain ⟨p, q, rfl⟩ : ∃ (p : Fin 4000) (q : Fin 64), j = ix2 p q := ⟨j 0, j 1, eq_ix2 j⟩
  obtain ⟨r, s, rfl⟩ : ∃ (r : Fin 200000) (s : Fin 64), i = ix2 r s := ⟨i 0, i 1, eq_ix2 i⟩
  have hr : r.val = 4000 * t.val + p.val := hi0
  obtain rfl : s = q := Fin.ext hi1
  refine (pay0_apply _ _ _ _ _ p s).trans ?_
  have a0 : ∀ k : Fin 166, (iblk0 V c 0 t : Vec Ideal S4000x166 .f32) (ix2 p k) = (V c main_v24 : S200000x166.Idx → Elt Ideal .f32) (ix2 r k) :=
    fun k => iblk0_0_apply V c t (ix2 p k) (ix2 r k) hr rfl
  have a1 : ∀ k : Fin 166, (iblk0 V c 1 t : Vec Ideal S4000x166 .f32) (ix2 p k) = (V c main_arg0 : S200000x166.Idx → Elt Ideal .f32) (ix2 r k) :=
    fun k => iblk0_1_apply V c t (ix2 p k) (ix2 r k) hr rfl
  unfold hidden affine
  simp only [a0, a1, iblk0_2_apply V c t, iblk0_3_apply V c t, iblk0_4_apply V c t]

/-- WHAT POINT t WRITES BACK is block t of `hidden`. -/
theorem flushed0_eq (c : Dev nD) (t : Fin cfg0.N) :
    (dat0 V c).flushed 5 t = ((cfg0.win 5).blk t).view.read (Elt Ideal) (hidden V c) := by
  obtain ⟨-, -, -, -, -, ⟨e0, e1⟩⟩ := idx0 t
  show (cfg0.win 5).cut (grid0.coords t) ((dat0 V c).after 5 t) = _
  rw [after0_5]
  unfold out0_5
  rw [View.canon_unit_zero hz]
  simp only [View.ld_unit_zero (S := S4000x166) hz, View.ld_unit_zero (S := S166x64) hz, View.ld_unit_zero (S := S1x64) hz]
  funext j
  show k0_pay1 (iblk0 V c 0 t) (iblk0 V c 1 t) (iblk0 V c 2 t) (iblk0 V c 3 t) (iblk0 V c 4 t) j
    = hidden V c (((cfg0.win 5).blk t).view.emb j)
  refine blk0_eq V c t j _ ?_ ?_
  · show win0_5.index t (0 : Fin 2) * 4000 + 1 * (j 0).val = 4000 * t.val + (j 0).val; rw [e0]; omega
  · show win0_5.index t (1 : Fin 2) * 64 + 1 * (j 1).val = (j 1).val; rw [e1]; omega

/-- An index of the array is in point t's block iff each coordinate is in the block's range on its axis. -/
theorem mem_blk0 (t : Fin cfg0.N) (i : S200000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v28).slice (win0_5.rect t)).set ↔ _
  rw [View.set_slice_whole, Rect.mem_set_unit]
  exact Iff.rfl

/-- Row r of the array is in the block of point r / 4000. -/
theorem cover0 (i : S200000x64.Idx) :
    ∃ t : Fin cfg0.N, (cfg0.win 5).flush t = true ∧ i ∈ ((cfg0.win 5).blk t).view.set := by
  have h0 : (i 0).val < 200000 := (i 0).isLt
  have h1 : (i 1).val < 64 := (i 1).isLt
  have hN : cfg0.N = 50 := N_0
  obtain ⟨t, ht⟩ : ∃ t : Fin cfg0.N, t.val = (i 0).val / 4000 := ⟨⟨(i 0).val / 4000, by rw [hN]; omega⟩, rfl⟩
  obtain ⟨-, -, -, -, -, ⟨e0, e1⟩⟩ := idx0 t
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 64 ≤ (i 1).val ∧ (i 1).val < win0_5.index t (1 : Fin 2) * 64 + 64; rw [e1]; omega

/-- THE FIRST LAYER'S ARRAY after its 50 points: `hidden` of the arrays the layer found. -/
theorem final0 (c : Dev nD) : (dat0 V c).arrAt 5 cfg0.N = hidden V c :=
  (dat0 V c).arrAt_eq_of_cover 5 (hidden V c) (fun t _ => flushed0_eq V c t) (cover0)

/-- Row p of point t's block of the normalised neighbour sum of the hidden features is row 4000·t + p of the array. -/
theorem iblk1_0_apply (c : Dev nD) (t : Fin cfg1.N) (x : S4000x64.Idx) (k : S200000x64.Idx)
    (hk0 : (k 0).val = 4000 * t.val + (x 0).val) (hk1 : (k 1).val = (x 1).val) :
    (iblk1 V c 0 t : Vec Ideal S4000x64 .f32) x = (V c main_v40 : S200000x64.Idx → Elt Ideal .f32) k := by
  obtain ⟨⟨e0, e1⟩, -⟩ := idx1 t
  unfold iblk1
  rw [View.read_apply]
  show V c main_v40 _ = V c main_v40 _
  refine congrArg (V c main_v40) ?_
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 64 + 1 * (x 1).val = (k 1).val; rw [e1, hk1]; omega

/-- Row p of point t's block of the hidden features is row 4000·t + p of the array. -/
theorem iblk1_1_apply (c : Dev nD) (t : Fin cfg1.N) (x : S4000x64.Idx) (k : S200000x64.Idx)
    (hk0 : (k 0).val = 4000 * t.val + (x 0).val) (hk1 : (k 1).val = (x 1).val) :
    (iblk1 V c 1 t : Vec Ideal S4000x64 .f32) x = (V c main_v28 : S200000x64.Idx → Elt Ideal .f32) k := by
  obtain ⟨-, ⟨e0, e1⟩, -⟩ := idx1 t
  unfold iblk1
  rw [View.read_apply]
  show V c main_v28 _ = V c main_v28 _
  refine congrArg (V c main_v28) ?_
  funext a
  apply Fin.ext
  match a with
  | ⟨0, _⟩ => show win1_1.index t (0 : Fin 2) * 4000 + 1 * (x 0).val = (k 0).val; rw [e0, hk0]; omega
  | ⟨1, _⟩ => show win1_1.index t (1 : Fin 2) * 64 + 1 * (x 1).val = (k 1).val; rw [e1, hk1]; omega

/-- Every point's block of the left weights is the whole matrix. -/
theorem iblk1_2_apply (c : Dev nD) (t : Fin cfg1.N) (x : S64x2.Idx) :
    (iblk1 V c 2 t : Vec Ideal S64x2 .f32) x = (V c main_v41 : S64x2.Idx → Elt Ideal .f32) x := by
  obtain ⟨-, -, ⟨e0, e1⟩, -⟩ := idx1 t
  unfold iblk1
  rw [View.read_apply]
  show V c main_v41 _ = V c main_v41 _
  refine congrArg (V c main_v41) ?_
  funext a
  apply Fin.ext
  match a with
  | ⟨0, _⟩ => show win1_2.index t (0 : Fin 2) * 64 + 1 * (x 0).val = (x 0).val; rw [e0]; omega
  | ⟨1, _⟩ => show win1_2.index t (1 : Fin 2) * 2 + 1 * (x 1).val = (x 1).val; rw [e1]; omega

/-- Every point's block of the right weights is the whole matrix. -/
theorem iblk1_3_apply (c : Dev nD) (t : Fin cfg1.N) (x : S64x2.Idx) :
    (iblk1 V c 3 t : Vec Ideal S64x2 .f32) x = (V c main_v42 : S64x2.Idx → Elt Ideal .f32) x := by
  obtain ⟨-, -, -, ⟨e0, e1⟩, -⟩ := idx1 t
  unfold iblk1
  rw [View.read_apply]
  show V c main_v42 _ = V c main_v42 _
  refine congrArg (V c main_v42) ?_
  funext a
  apply Fin.ext
  match a with
  | ⟨0, _⟩ => show win1_3.index t (0 : Fin 2) * 64 + 1 * (x 0).val = (x 0).val; rw [e0]; omega
  | ⟨1, _⟩ => show win1_3.index t (1 : Fin 2) * 2 + 1 * (x 1).val = (x 1).val; rw [e1]; omega

/-- Every point's block of the bias is the whole one-row matrix. -/
theorem iblk1_4_apply (c : Dev nD) (t : Fin cfg1.N) (x : S1x2.Idx) :
    (iblk1 V c 4 t : Vec Ideal S1x2 .f32) x = (V c main_v43 : S1x2.Idx → Elt Ideal .f32) x := by
  obtain ⟨-, -, -, -, ⟨e0, e1⟩, -⟩ := idx1 t
  unfold iblk1
  rw [View.read_apply]
  show V c main_v43 _ = V c main_v43 _
  refine congrArg (V c main_v43) ?_
  funext a
  apply Fin.ext
  match a with
  | ⟨0, _⟩ => show win1_4.index t (0 : Fin 2) * 1 + 1 * (x 0).val = (x 0).val; rw [e0]; omega
  | ⟨1, _⟩ => show win1_4.index t (1 : Fin 2) * 2 + 1 * (x 1).val = (x 1).val; rw [e1]; omega

/-! ## The second layer's output array -/

/-- What the second layer's output array ends holding: at node r, class s, the affine combination of row r of the
    normalised neighbour sum of the hidden features and of the hidden features with the weights and the bias, all as
    the layer finds them. -/
def result (c : Dev nD) : S200000x2.Idx → Ideal .f32 := fun i =>
  affine (V c main_v40 : FVec Ideal S200000x64 .f32) (V c main_v28 : FVec Ideal S200000x64 .f32)
    (V c main_v41 : FVec Ideal S64x2 .f32) (V c main_v42 : FVec Ideal S64x2 .f32)
    (fun q => (V c main_v43 : FVec Ideal S1x2 .f32) (ix2 (0 : Fin 1) q)) (i 0) (i 1)

/-- An entry of point t's block is `result` at the entry's place in the array. -/
theorem blk1_eq (c : Dev nD) (t : Fin cfg1.N) (j : S4000x2.Idx) (i : S200000x2.Idx)
    (hi0 : (i 0).val = 4000 * t.val + (j 0).val) (hi1 : (i 1).val = (j 1).val) :
    k1_pay1 (iblk1 V c 0 t) (iblk1 V c 1 t) (iblk1 V c 2 t) (iblk1 V c 3 t) (iblk1 V c 4 t) j = result V c i := by
  obtain ⟨p, q, rfl⟩ : ∃ (p : Fin 4000) (q : Fin 2), j = ix2 p q := ⟨j 0, j 1, eq_ix2 j⟩
  obtain ⟨r, s, rfl⟩ : ∃ (r : Fin 200000) (s : Fin 2), i = ix2 r s := ⟨i 0, i 1, eq_ix2 i⟩
  have hr : r.val = 4000 * t.val + p.val := hi0
  obtain rfl : s = q := Fin.ext hi1
  refine (pay1_apply _ _ _ _ _ p s).trans ?_
  have a0 : ∀ k : Fin 64, (iblk1 V c 0 t : Vec Ideal S4000x64 .f32) (ix2 p k) = (V c main_v40 : S200000x64.Idx → Elt Ideal .f32) (ix2 r k) :=
    fun k => iblk1_0_apply V c t (ix2 p k) (ix2 r k) hr rfl
  have a1 : ∀ k : Fin 64, (iblk1 V c 1 t : Vec Ideal S4000x64 .f32) (ix2 p k) = (V c main_v28 : S200000x64.Idx → Elt Ideal .f32) (ix2 r k) :=
    fun k => iblk1_1_apply V c t (ix2 p k) (ix2 r k) hr rfl
  unfold result affine
  simp only [a0, a1, iblk1_2_apply V c t, iblk1_3_apply V c t, iblk1_4_apply V c t]

/-- WHAT POINT t WRITES BACK is block t of `result`. -/
theorem flushed1_eq (c : Dev nD) (t : Fin cfg1.N) :
    (dat1 V c).flushed 5 t = ((cfg1.win 5).blk t).view.read (Elt Ideal) (result V c) := by
  obtain ⟨-, -, -, -, -, ⟨e0, e1⟩⟩ := idx1 t
  show (cfg1.win 5).cut (grid1.coords t) ((dat1 V c).after 5 t) = _
  rw [after1_5]
  unfold out1_5
  rw [View.canon_unit_zero hz]
  simp only [View.ld_unit_zero (S := S4000x64) hz, View.ld_unit_zero (S := S64x2) hz, View.ld_unit_zero (S := S1x2) hz]
  funext j
  show k1_pay1 (iblk1 V c 0 t) (iblk1 V c 1 t) (iblk1 V c 2 t) (iblk1 V c 3 t) (iblk1 V c 4 t) j
    = result V c (((cfg1.win 5).blk t).view.emb j)
  refine blk1_eq V c t j _ ?_ ?_
  · show win1_5.index t (0 : Fin 2) * 4000 + 1 * (j 0).val = 4000 * t.val + (j 0).val; rw [e0]; omega
  · show win1_5.index t (1 : Fin 2) * 2 + 1 * (j 1).val = (j 1).val; rw [e1]; omega

/-- An index of the array is in point t's block iff each coordinate is in the block's range on its axis. -/
theorem mem_blk1 (t : Fin cfg1.N) (i : S200000x2.Idx) :
    i ∈ ((cfg1.win 5).blk t).view.set ↔ ∀ a : Fin 2, win1_5.index t a * S4000x2.size a ≤ (i a).val ∧ (i a).val < win1_5.index t a * S4000x2.size a + S4000x2.size a := by
  show i ∈ ((View.whole main_v44).slice (win1_5.rect t)).set ↔ _
  rw [View.set_slice_whole, Rect.mem_set_unit]
  exact Iff.rfl

/-- Row r of the array is in the block of point r / 4000. -/
theorem cover1 (i : S200000x2.Idx) :
    ∃ t : Fin cfg1.N, (cfg1.win 5).flush t = true ∧ i ∈ ((cfg1.win 5).blk t).view.set := by
  have h0 : (i 0).val < 200000 := (i 0).isLt
  have h1 : (i 1).val < 2 := (i 1).isLt
  have hN : cfg1.N = 50 := N_1
  obtain ⟨t, ht⟩ : ∃ t : Fin cfg1.N, t.val = (i 0).val / 4000 := ⟨⟨(i 0).val / 4000, by rw [hN]; omega⟩, rfl⟩
  obtain ⟨-, -, -, -, -, ⟨e0, e1⟩⟩ := idx1 t
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 2 ≤ (i 1).val ∧ (i 1).val < win1_5.index t (1 : Fin 2) * 2 + 2; rw [e1]; omega

/-- THE SECOND LAYER'S ARRAY after its 50 points: `result` of the arrays the layer found. -/
theorem final1 (c : Dev nD) : (dat1 V c).arrAt 5 cfg1.N = result V c :=
  (dat1 V c).arrAt_eq_of_cover 5 (result V c) (fun t _ => flushed1_eq V c t) (cover1)

end Cert.KernelIdeal.Layers

end
-- ==== Proof.RefLayers.lean ====
/-
  The reference's two layers read at an entry.

  The reference computes the hidden features as  max (agg₁ · W1_lᵀ + x · W1_rᵀ + b1, 0)  and the result as
  agg₂ · W2_lᵀ + h · W2_rᵀ + b2, where agg₁ and agg₂ are the degree-normalised neighbour sums of x and of h.  Each
  `dot_general` contracts the second axis of its left operand against the first axis of the transposed weights, so
  entry (p, q) of each layer is `affine` of the layer's operands: the neighbour sums and the transposed weights stay
  the opaque stages they are.
-/
import proofs.«154784_j1623497638641_1_alg».proof.Proof.Gen.ReferenceIdeal.Read
import proofs.«154784_j1623497638641_1_alg».proof.Proof.LibDenseBlock

noncomputable section

namespace Cert.ReferenceIdeal.Layers

open Cert.ReferenceIdeal Cert.ReferenceIdeal.Read Idealize.ShloMosaic Idealize.ShloMosaic.ValueIdx
open Cert.LibDenseBlock (affine)

/-- The hidden layer at node p, feature q: the rectified affine combination of the normalised neighbour sum of x
    (the stage `val_main_v24`), x itself, the two transposed weight matrices and the bias b1. -/
theorem hidden_apply (x0 : (⟨S200000x166, .f32⟩ : BufTy).Contents (Elt Ideal)) (x1 : (⟨S2x500000, .i32⟩ : BufTy).Contents (Elt Ideal))
    (x2 x3 : (⟨S64x166, .f32⟩ : BufTy).Contents (Elt Ideal)) (x4 : (⟨S64, .f32⟩ : BufTy).Contents (Elt Ideal))
    (p : Fin 200000) (q : Fin 64) :
    val_main_v33 (F := Ideal) x0 x1 x2 x3 x4 (ix2 p q)
      = max (affine (val_main_v24 (F := Ideal) x0 x1) x0 (val_main_v25 (F := Ideal) x2) (val_main_v27 (F := Ideal) x3)
          (fun q => x4 (ix1 q)) p q) (FloatOps.ofBits .f32 0x00000000#32) := by
  have e1 : ∀ k, lidx_main_v26 (ix2 p q) k = ix2 p k := fun k => funext fun a => Fin.ext (by
    match a with | ⟨0, _⟩ => rfl | ⟨1, _⟩ => rfl)
  have e2 : ∀ k, ridx_main_v26 (ix2 p q) k = ix2 k q := fun k => funext fun a => Fin.ext (by
    match a with | ⟨0, _⟩ => rfl | ⟨1, _⟩ => rfl)
  have e3 : ∀ k, lidx_main_v28 (ix2 p q) k = ix2 p k := fun k => funext fun a => Fin.ext (by
    match a with | ⟨0, _⟩ => rfl | ⟨1, _⟩ => rfl)
  have e4 : ∀ k, ridx_main_v28 (ix2 p q) k = ix2 k q := fun k => funext fun a => Fin.ext (by
    match a with | ⟨0, _⟩ => rfl | ⟨1, _⟩ => rfl)
  have e5 : idx_main_v30 (idx_main_v31 (ix2 p q)) = ix1 q := funext fun a => Fin.ext (by
    match a with | ⟨0, _⟩ => rfl)
  rw [val_main_v33_apply, val_main_v32_apply, val_main_v29_apply, val_main_v26_apply, val_main_v28_apply,
    val_main_v31_apply, val_main_v30_apply, val_main_call0_v0_apply, val_main_call0_cst_apply]
  simp only [e1, e2, e3, e4, e5]
  rfl

/-- The result at node p, class q: the affine combination of the normalised neighbour sum of the hidden features
    (the stage `val_main_v45`), the hidden features, the two transposed weight matrices and the bias b2. -/
theorem result_apply (x0 : (⟨S200000x166, .f32⟩ : BufTy).Contents (Elt Ideal)) (x1 : (⟨S2x500000, .i32⟩ : BufTy).Contents (Elt Ideal))
    (x2 x3 : (⟨S64x166, .f32⟩ : BufTy).Contents (Elt Ideal)) (x4 : (⟨S64, .f32⟩ : BufTy).Contents (Elt Ideal))
    (x5 x6 : (⟨S2x64, .f32⟩ : BufTy).Contents (Elt Ideal)) (x7 : (⟨S2, .f32⟩ : BufTy).Contents (Elt Ideal))
    (p : Fin 200000) (q : Fin 2) :
    val_main_v53 (F := Ideal) x0 x1 x2 x3 x4 x5 x6 x7 (ix2 p q)
      = affine (val_main_v45 (F := Ideal) x0 x1 x2 x3 x4) (val_main_v33 (F := Ideal) x0 x1 x2 x3 x4)
          (val_main_v46 (F := Ideal) x5) (val_main_v48 (F := Ideal) x6) (fun q => x7 (ix1 q)) p q := by
  have e1 : ∀ k, lidx_main_v47 (ix2 p q) k = ix2 p k := fun k => funext fun a => Fin.ext (by
    match a with | ⟨0, _⟩ => rfl | ⟨1, _⟩ => rfl)
  have e2 : ∀ k, ridx_main_v47 (ix2 p q) k = ix2 k q := fun k => funext fun a => Fin.ext (by
    match a with | ⟨0, _⟩ => rfl | ⟨1, _⟩ => rfl)
  have e3 : ∀ k, lidx_main_v49 (ix2 p q) k = ix2 p k := fun k => funext fun a => Fin.ext (by
    match a with | ⟨0, _⟩ => rfl | ⟨1, _⟩ => rfl)
  have e4 : ∀ k, ridx_main_v49 (ix2 p q) k = ix2 k q := fun k => funext fun a => Fin.ext (by
    match a with | ⟨0, _⟩ => rfl | ⟨1, _⟩ => rfl)
  have e5 : idx_main_v51 (idx_main_v52 (ix2 p q)) = ix1 q := funext fun a => Fin.ext (by
    match a with | ⟨0, _⟩ => rfl)
  rw [val_main_v53_apply, val_main_v50_apply, val_main_v47_apply, val_main_v49_apply, val_main_v52_apply,
    val_main_v51_apply]
  simp only [e1, e2, e3, e4, e5]
  rfl

end Cert.ReferenceIdeal.Layers

end
-- ==== Proof.KernelHost.lean ====
/-
  The idealized kernel's result array as a function of the argument arrays.

  Before the first fused layer the host computes, from the edge list and x, the normalised neighbour sum of x, and
  transposes the first layer's weights; between the layers it computes the normalised neighbour sum of the hidden
  features the same way, from the same edge list, and transposes the second layer's weights.  These are, operation for
  operation, the stages of the reference (the same gathers, scatter-adds, degree counts and transposes of the same
  arrays), so they are carried as those stages and never opened.  With `hidden` and `result` (what each layer's 50
  write-backs leave) read at an entry, the first layer's array is the reference's hidden features and the second
  layer's array is the reference's result.
-/
import proofs.«154784_j1623497638641_1_alg».proof.Proof.Gen.KernelIdeal.Frame
import proofs.«154784_j1623497638641_1_alg».proof.Proof.Gen.ReferenceIdeal.Read
import proofs.«154784_j1623497638641_1_alg».proof.Proof.KernelBlocks
import proofs.«154784_j1623497638641_1_alg».proof.Proof.RefLayers
import Idealize.ShloMosaic.Lib.StableHlo.Run

set_option maxRecDepth 16384

noncomputable section

namespace Cert.KernelIdeal.Host

open Cert.KernelIdeal Cert.KernelIdeal.Gen Cert.KernelIdeal.Layers
open Idealize.ShloMosaic Idealize.ShloMosaic.TcCoe Idealize.SL.Sem Idealize.ShloMosaic.StableHlo
open Idealize.ShloMosaic.ValueIdx
open Cert.LibDenseBlock (affine)

variable (m : (ℓ : Loc nD τ sig) → Buf (Elt Ideal) ℓ) (ρ : Dev nD → PrngReg)

/-! ## The arrays the first layer finds -/

/-- The normalised neighbour sum of x, as the reference's stage of the same name computes it. -/
theorem V1_v24 (c : Dev nD) : V1 m ρ c main_v24
    = Cert.ReferenceIdeal.Read.val_main_v24 (F := Ideal) (m ((c : Thread nD τ).loc main_arg0)) (m ((c : Thread nD τ).loc main_arg1)) := by
  show StableHlo.after hostOps0 (W0 m ρ c) (Proc.devRef .tc main_v24) = _
  after_results_simp
  rfl

/-- The node features reach the first layer as launched. -/
theorem V1_arg0 (c : Dev nD) : V1 m ρ c main_arg0 = (m ((c : Thread nD τ).loc main_arg0)) := by
  show StableHlo.after hostOps0 (W0 m ρ c) (Proc.devRef .tc main_arg0) = _
  after_results_simp

/-- The first layer's left weights, transposed. -/
theorem V1_v25 (c : Dev nD) : V1 m ρ c main_v25
    = Cert.ReferenceIdeal.Read.val_main_v25 (F := Ideal) (m ((c : Thread nD τ).loc main_arg2)) := by
  show StableHlo.after hostOps0 (W0 m ρ c) (Proc.devRef .tc main_v25) = _
  after_results_simp
  rfl

/-- The first layer's right weights, transposed. -/
theorem V1_v26 (c : Dev nD) : V1 m ρ c main_v26
    = Cert.ReferenceIdeal.Read.val_main_v27 (F := Ideal) (m ((c : Thread nD τ).loc main_arg3)) := by
  show StableHlo.after hostOps0 (W0 m ρ c) (Proc.devRef .tc main_v26) = _
  after_results_simp
  rfl

/-- The first layer's bias as a one-row matrix: column q holds b1 (q). -/
theorem V1_v27 (c : Dev nD) (q : Fin 64) :
    (V1 m ρ c main_v27 : FVec Ideal S1x64 .f32) (ix2 (0 : Fin 1) q) = ((m ((c : Thread nD τ).loc main_arg4)) : FVec Ideal S64 .f32) (ix1 q) := by
  have e : (V1 m ρ c main_v27 : FVec Ideal S1x64 .f32)
      = shapeCast S1x64 ((m ((c : Thread nD τ).loc main_arg4)) : FVec Ideal S64 .f32) shapeCasts_S64_S1x64 := by
    show StableHlo.after hostOps0 (W0 m ρ c) (Proc.devRef .tc main_v27) = _
    after_results_simp
    rfl
  rw [e]
  exact shapeCast_a_1a_apply _ _ 0 q

/-- The edges' source nodes, the edges' target nodes and the reciprocal degrees, computed before the first layer and
    read again after it. -/
theorem V1_v1 (c : Dev nD) : V1 m ρ c main_v1
    = Cert.ReferenceIdeal.Read.val_main_v1 (F := Ideal) (m ((c : Thread nD τ).loc main_arg1)) := by
  show StableHlo.after hostOps0 (W0 m ρ c) (Proc.devRef .tc main_v1) = _
  after_results_simp
  rfl

theorem V1_v3 (c : Dev nD) : V1 m ρ c main_v3
    = Cert.ReferenceIdeal.Read.val_main_v3 (F := Ideal) (m ((c : Thread nD τ).loc main_arg1)) := by
  show StableHlo.after hostOps0 (W0 m ρ c) (Proc.devRef .tc main_v3) = _
  after_results_simp
  rfl

theorem V1_v12 (c : Dev nD) : V1 m ρ c main_v12
    = Cert.ReferenceIdeal.Read.val_main_v12 (F := Ideal) (m ((c : Thread nD τ).loc main_arg1)) := by
  show StableHlo.after hostOps0 (W0 m ρ c) (Proc.devRef .tc main_v12) = _
  after_results_simp
  rfl

/-- The second layer's weights and bias pass the first stretch untouched. -/
theorem V1_arg5 (c : Dev nD) : V1 m ρ c main_arg5 = (m ((c : Thread nD τ).loc main_arg5)) := by
  show StableHlo.after hostOps0 (W0 m ρ c) (Proc.devRef .tc main_arg5) = _
  after_results_simp
theorem V1_arg6 (c : Dev nD) : V1 m ρ c main_arg6 = (m ((c : Thread nD τ).loc main_arg6)) := by
  show StableHlo.after hostOps0 (W0 m ρ c) (Proc.devRef .tc main_arg6) = _
  after_results_simp
theorem V1_arg7 (c : Dev nD) : V1 m ρ c main_arg7 = (m ((c : Thread nD τ).loc main_arg7)) := by
  show StableHlo.after hostOps0 (W0 m ρ c) (Proc.devRef .tc main_arg7) = _
  after_results_simp

/-! ## The first layer's array is the reference's hidden features -/

/-- `hidden` at node r, feature s. -/
theorem hidden_ix2 (V : (c : Dev nD) → (b : Ref sig .tc) → Buf (Elt Ideal) ((c : Thread nD τ).loc b)) (c : Dev nD)
    (r : Fin 200000) (s : Fin 64) :
    Layers.hidden V c (ix2 r s)
      = max (affine (V c main_v24 : FVec Ideal S200000x166 .f32) (V c main_arg0 : FVec Ideal S200000x166 .f32)
          (V c main_v25 : FVec Ideal S166x64 .f32) (V c main_v26 : FVec Ideal S166x64 .f32)
          (fun q => (V c main_v27 : FVec Ideal S1x64 .f32) (ix2 (0 : Fin 1) q)) r s)
        (FloatOps.ofBits .f32 0x00000000#32) := rfl

theorem hidden_eq (c : Dev nD) : Layers.hidden (V1 m ρ) c
    = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, s, rfl⟩ : ∃ (r : Fin 200000) (s : Fin 64), i = ix2 r s := ⟨i 0, i 1, eq_ix2 i⟩
  have hb : (fun q : Fin 64 => (V1 m ρ c main_v27 : FVec Ideal S1x64 .f32) (ix2 (0 : Fin 1) q))
      = fun q => ((m ((c : Thread nD τ).loc main_arg4)) : FVec Ideal S64 .f32) (ix1 q) := funext fun q => V1_v27 m ρ c q
  rw [Cert.ReferenceIdeal.Layers.hidden_apply, hidden_ix2, V1_v24, V1_arg0, V1_v25, V1_v26, hb]

/-! ## The buffers after the first layer -/

theorem W2_v28 (c : Dev nD) : W2 m ρ c (Proc.devRef .tc main_v28)
    = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((final0 (V1 m ρ) c).trans (hidden_eq m ρ c))
theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (V1_v1 m ρ c)
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (V1_v3 m ρ c)
theorem W2_v12 (c : Dev nD) : W2 m ρ c (Proc.devRef .tc main_v12) = Cert.ReferenceIdeal.Read.val_main_v12 (F := Ideal) (m ((c : Thread nD τ).loc main_arg1)) :=
  (W2_of_ne m ρ c main_v12 (by decide)).trans (V1_v12 m ρ c)
theorem W2_arg5 (c : Dev nD) : W2 m ρ c (Proc.devRef .tc main_arg5) = (m ((c : Thread nD τ).loc main_arg5)) :=
  (W2_of_ne m ρ c main_arg5 (by decide)).trans (V1_arg5 m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)

/-! ## The arrays the second layer finds -/

/-- The normalised neighbour sum of the hidden features: the same gather, scatter-add and scaling by the reciprocal
    degrees, of the same hidden features, as the reference's stage. -/
theorem V3_v40 (c : Dev nD) : V3 m ρ c main_v40
    = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v40) = _
  after_results_simp
  rw [W2_v28, W2_v1, W2_v3, W2_v12]
  rfl

/-- The hidden features reach the second layer as the first layer left them. -/
theorem V3_v28 (c : Dev nD) : V3 m ρ c main_v28
    = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v28) = _
  after_results_simp
  exact W2_v28 m ρ c

/-- The second layer's weights, transposed. -/
theorem V3_v41 (c : Dev nD) : V3 m ρ c main_v41 = Cert.ReferenceIdeal.Read.val_main_v46 (F := Ideal) (m ((c : Thread nD τ).loc main_arg5)) := by
  show StableHlo.after hostOps1 (W2 m ρ c) (Proc.devRef .tc main_v41) = _
  after_results_simp
  rw [W2_arg5]
  rfl
theorem V3_v42 (c : Dev nD) : V3 m ρ c main_v42 = Cert.ReferenceIdeal.Read.val_main_v48 (F := Ideal) (m ((c : Thread nD τ).loc main_arg6)) := by
  show StableHlo.after hostOps1 (W2 m ρ c) (Proc.devRef .tc main_v42) = _
  after_results_simp
  rw [W2_arg6]
  rfl

/-- The second layer's bias as a one-row matrix: column q holds b2 (q). -/
theorem V3_v43 (c : Dev nD) (q : Fin 2) :
    (V3 m ρ c main_v43 : FVec Ideal S1x2 .f32) (ix2 (0 : Fin 1) q) = ((m ((c : Thread nD τ).loc main_arg7)) : FVec Ideal S2 .f32) (ix1 q) := by
  have e : (V3 m ρ c main_v43 : FVec Ideal S1x2 .f32)
      = shapeCast S1x2 ((m ((c : Thread nD τ).loc main_arg7)) : FVec Ideal S2 .f32) shapeCasts_S2_S1x2 := by
    show StableHlo.after hostOps1 (W2 m ρ c) (Proc.devRef .tc main_v43) = _
    after_results_simp
    rw [W2_arg7]
    rfl
  rw [e]
  exact shapeCast_a_1a_apply _ _ 0 q

/-! ## The second layer's array is the reference's result -/

/-- `result` at node r, class s. -/
theorem result_ix2 (V : (c : Dev nD) → (b : Ref sig .tc) → Buf (Elt Ideal) ((c : Thread nD τ).loc b)) (c : Dev nD)
    (r : Fin 200000) (s : Fin 2) :
    Layers.result V c (ix2 r s)
      = affine (V c main_v40 : FVec Ideal S200000x64 .f32) (V c main_v28 : FVec Ideal S200000x64 .f32)
          (V c main_v41 : FVec Ideal S64x2 .f32) (V c main_v42 : FVec Ideal S64x2 .f32)
          (fun q => (V c main_v43 : FVec Ideal S1x2 .f32) (ix2 (0 : Fin 1) q)) r s := rfl

theorem result_eq (c : Dev nD) : Layers.result (V3 m ρ) c
    = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨r, s, rfl⟩ : ∃ (r : Fin 200000) (s : Fin 2), i = ix2 r s := ⟨i 0, i 1, eq_ix2 i⟩
  have hb : (fun q : Fin 2 => (V3 m ρ c main_v43 : FVec Ideal S1x2 .f32) (ix2 (0 : Fin 1) q))
      = fun q => ((m ((c : Thread nD τ).loc main_arg7)) : FVec Ideal S2 .f32) (ix1 q) := funext fun q => V3_v43 m ρ c q
  rw [Cert.ReferenceIdeal.Layers.result_apply, result_ix2, V3_v40, V3_v28, V3_v41, V3_v42, hb]

/-- THE RESULT ARRAY after the last segment, as the reference's function of the argument arrays. -/
theorem out_eq (c : Dev nD) : W4 m ρ c (Proc.devRef .tc main_v44)
    = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans ((final1 (V3 m ρ) c).trans (result_eq m ρ c))

end Cert.KernelIdeal.Host

end
-- ==== Proof.lean ====
/-
  A two-layer GraphSAGE network with mean aggregation, as a Pallas kernel per dense layer, against its jnp reference:
  equal results on the extended reals.

  Both programs compute, for 200000 nodes and 500000 directed edges (src → dst),

      deg⁻¹(n) = 1 / max (#{e : dst e = n}, 1)
      agg₁(n)  = deg⁻¹(n) · ∑ {e : dst e = n} x(src e)
      h(n)     = max (agg₁(n) · W1_lᵀ + x(n) · W1_rᵀ + b1, 0)
      agg₂(n)  = deg⁻¹(n) · ∑ {e : dst e = n} h(src e)
      out(n)   = agg₂(n) · W2_lᵀ + h(n) · W2_rᵀ + b2.

  The kernel's program and the reference spell the gathers, scatter-adds, degree counts and transposes with the same host
  operations on the same arrays, and differ in the dense layers only: the reference takes two `dot_general`s over all
  200000 rows, adds them and adds the bias broadcast down the rows; the kernel runs a grid of 50 points over blocks of
  4000 rows, rounds the operands to bf16 on the way into two matrix products accumulated into zero, adds them and the
  bias row.  On the extended reals the rounding is the identity and a product into a zero accumulator is the plain sum
  over the contraction index, and row n of a product depends on row n of the left operand only: so the 50 blocks are the
  row blocks of the reference's layer, entry by entry the same sums in the same order (no law of arithmetic beyond that
  is used, and the inputs' finiteness is never opened).  The second layer is fed the first layer's array through the
  same host operations as the reference's, so the equality of the hidden features carries to the result.

  No rewrite was applied to the kernel when it was idealized, so the kernel's idealization is its own text and
  `preserves` is trivial.  The three frames are the generated ones.
-/
import proofs.«154784_j1623497638641_1_alg».proof.Defs
import proofs.«154784_j1623497638641_1_alg».proof.Proof.Gen.Kernel
import proofs.«154784_j1623497638641_1_alg».proof.Proof.Gen.Kernel.Skeleton
import proofs.«154784_j1623497638641_1_alg».proof.Proof.Gen.Kernel.Launch
import proofs.«154784_j1623497638641_1_alg».proof.Proof.Gen.Kernel.Points
import proofs.«154784_j1623497638641_1_alg».proof.Proof.Gen.Kernel.Frame
import proofs.«154784_j1623497638641_1_alg».proof.Proof.Gen.KernelIdeal
import proofs.«154784_j1623497638641_1_alg».proof.Proof.Gen.KernelIdeal.Skeleton
import proofs.«154784_j1623497638641_1_alg».proof.Proof.Gen.KernelIdeal.Launch
import proofs.«154784_j1623497638641_1_alg».proof.Proof.Gen.KernelIdeal.Points
import proofs.«154784_j1623497638641_1_alg».proof.Proof.Gen.KernelIdeal.Frame
import proofs.«154784_j1623497638641_1_alg».proof.Proof.Gen.ReferenceIdeal
import proofs.«154784_j1623497638641_1_alg».proof.Proof.Gen.ReferenceIdeal.Run
import proofs.«154784_j1623497638641_1_alg».proof.Proof.Gen.ReferenceIdeal.Read
import proofs.«154784_j1623497638641_1_alg».proof.Proof.Gen.Pre_finite_inputs
import proofs.«154784_j1623497638641_1_alg».proof.Proof.KernelRun
import proofs.«154784_j1623497638641_1_alg».proof.Proof.KernelHost
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the reference's last stage of
    the kernel's arguments: the kernel by its two layers' arrays read block by block, the reference by its run. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Host.out_eq m ρ c), (h c).2⟩) (Cert.KernelIdeal.Out.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v53_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
